-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x2048x512 : Shape := ⟨3, ![32, 2048, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_

variable [Facts]

def fn {F : FTy → Type} [FloatOps F] (main_arg0 : FVec F S32x512x512 .f32) (main_arg1 : FVec F S32x2048x512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  main_v8
-- ==== Kernel.lean ====
abbrev S32x512x512 : Shape := ⟨3, ![32, 512, 512]⟩
abbrev S32x2048x512 : Shape := ⟨3, ![32, 2048, 512]⟩
abbrev S1x512x512 : Shape := ⟨3, ![1, 512, 512]⟩
abbrev S1x2048x512 : Shape := ⟨3, ![1, 2048, 512]⟩
abbrev S512x512 : Shape := ⟨2, ![512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x512x512, .f32⟩
  | .hbm, ⟨1, _⟩ => ⟨S32x2048x512, .f32⟩
  | .hbm, ⟨2, _⟩ => ⟨S32x512x512, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x512, .f32⟩
  | .local _ .vmem, ⟨5, _⟩ => ⟨S1x512x512, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  broadcasts_S512x1_S512x512 : S512x1.Broadcasts S512x512
  shapeCasts_S512x512_S1x512x512 : S512x512.ShapeCasts S1x512x512
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S32x2048x512.size a
  hwx0_1 : ∀ i : grid0.Coords, EltTy.bits .f32 = 32 ∨ (Rect.block (s := S32x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S32x512x512.size a
  hwx0_2 : ∀ i : grid0.Coords, EltTy.bits .f32 = 32 ∨ (Rect.block (s := S32x512x512) S1x512x512.size (cc0_transform_2 i) (hinb0_2 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S32x2048x512 : Shape := ⟨3, ![32, 2048, 512]⟩
abbrev S32x512x2048 : Shape := ⟨3, ![32, 512, 2048]⟩
abbrev S_ : Shape := ⟨0, ![]⟩
abbrev S32x512 : Shape := ⟨2, ![32, 512]⟩
abbrev S32x512x1 : Shape := ⟨3, ![32, 512, 1]⟩

abbrev nBuf : Space → Nat
  | .hbm => 18
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x2048x512, .f32⟩
  | .hbm, ⟨2, _⟩ => ⟨S32x512x2048, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x512x1, .f32⟩
  | .hbm, ⟨9, _⟩ => ⟨S32x512x2048, .f32⟩
  | .hbm, ⟨10, _⟩ => ⟨S32x512x2048, .f32⟩
  | .hbm, ⟨11, _⟩ => ⟨S32x512x2048, .f32⟩
  | .hbm, ⟨12, _⟩ => ⟨S_, .f32⟩
  | .hbm, ⟨13, _⟩ => ⟨S32x512, .f32⟩
  | .hbm, ⟨14, _⟩ => ⟨S32x512x1, .f32⟩
  | .hbm, ⟨15, _⟩ => ⟨S32x512x2048, .f32⟩
  | .hbm, ⟨16, _⟩ => ⟨S32x512x2048, .f32⟩
  | .hbm, ⟨17, _⟩ => ⟨S32x512x512, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S32x512x2048_S32x512_d2 : S32x512x2048.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x2048_0_1_2 : S32x512x1.BroadcastsInDim S32x512x2048 (![0, 1, 2] : Fin 3 → Fin S32x512x2048.rank)
  dot_S32x512x512_S32x2048x512_S32x512x2048_2_2_1_1_0_0_wf : DotDims.WF S32x512x512 S32x2048x512 S32x512x2048 [2] [2] [1] [1] [0] [0]
  dot_S32x512x2048_S32x2048x512_S32x512x512_2_1_1_2_0_0_wf : DotDims.WF S32x512x2048 S32x2048x512 S32x512x512 [2] [1] [1] [2] [0] [0]

variable [Facts₀]

def dot_S32x512x512_S32x2048x512_S32x512x2048_2_2_1_1_0_0 : DotDims S32x512x512 S32x2048x512 S32x512x2048 where
  lhsContracting := [2]
  rhsContracting := [2]
  lhsNonContracting := [1]
  rhsNonContracting := [1]
  lhsBatch := [0]
  rhsBatch := [0]
  wf := dot_S32x512x512_S32x2048x512_S32x512x2048_2_2_1_1_0_0_wf
def dot_S32x512x2048_S32x2048x512_S32x512x512_2_1_1_2_0_0 : DotDims S32x512x2048 S32x2048x512 S32x512x512 where
  lhsContracting := [2]
  rhsContracting := [1]
  lhsNonContracting := [1]
  rhsNonContracting := [2]
  lhsBatch := [0]
  rhsBatch := [0]
  wf := dot_S32x512x2048_S32x2048x512_S32x512x512_2_1_1_2_0_0_wf

class Facts : Prop extends Facts₀ where

variable [Facts]
-- ==== Proof.SoftmaxRow.lean ====
/-
  Softmax attention for ONE query row, on the extended reals.

  A query row has a score against each of k key rows; the scores are shifted by their largest value, exponentiated
  into positive weights, and the weights — normalised by their sum — average the k value rows.  Two arrangements of
  the normalisation are stated: dividing the weighted sum once, after it is formed, and dividing every weight before
  it multiplies its value.  They agree whenever the scores are real numbers: the largest score is then real, every
  weight is a positive real, so their sum is a positive real l; division by l is multiplication by 1/l on every
  extended real, and a finite nonnegative factor distributes over any sum of extended reals.  The values being
  averaged need no finiteness at all.
-/
import Idealize.ShloMosaic.PureOps.Ideal

noncomputable section

open scoped BigOperators

namespace Cert.SoftmaxRow

open Idealize.ShloMosaic

variable {k d : ℕ}

/-- The inner product of two feature rows. -/
def dotRow (x y : Fin d → EReal) : EReal := ∑ j : Fin d, x j * y j

/-- The largest of a row of scores, folded from −∞. -/
def rowMax (s : Fin k → EReal) : EReal := (Finset.univ : Finset (Fin k)).fold max ⊥ s

/-- The weight of key o: the exponential of its score's distance below the largest score. -/
def weight (s : Fin k → EReal) (o : Fin k) : EReal := Ideal.exp (s o - rowMax s)

/-- The sum of the weights. -/
def denom (s : Fin k → EReal) : EReal := ∑ o : Fin k, weight s o

/-- The weighted sum of the values, divided by the sum of the weights afterwards. -/
def normAfter (s v : Fin k → EReal) : EReal := Ideal.div (∑ o : Fin k, weight s o * v o) (denom s)

/-- Every weight divided by the sum of the weights first, then the weighted sum of the values. -/
def normBefore (s v : Fin k → EReal) : EReal := ∑ o : Fin k, Ideal.div (weight s o) (denom s) * v o

/-- The inclusion of the reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The inner product of two real rows is a real. -/
theorem dotRow_coe (x y : Fin d → ℝ) :
    dotRow (fun j => (x j : EReal)) (fun j => (y j : EReal)) = ((∑ j : Fin d, x j * y j : ℝ) : EReal) := by
  unfold dotRow
  rw [coe_sum]
  exact Finset.sum_congr rfl fun j _ => (EReal.coe_mul _ _).symm

/-- The largest of a nonempty row of real scores is real: folding from −∞, the first score replaces −∞ and every
    later step is the larger of two reals. -/
theorem rowMax_coe (hk : 0 < k) (s : Fin k → ℝ) : ∃ r : ℝ, rowMax (fun o => (s o : EReal)) = (r : EReal) := by
  unfold rowMax
  suffices h : ∀ t : Finset (Fin k), t.Nonempty →
      ∃ r : ℝ, t.fold max (⊥ : EReal) (fun o => (s o : EReal)) = (r : EReal) from
    h _ ⟨⟨0, hk⟩, Finset.mem_univ _⟩
  intro t ht
  induction ht using Finset.Nonempty.cons_induction with
  | singleton a => exact ⟨s a, by rw [Finset.fold_singleton]; exact max_bot_right _⟩
  | cons a t ha _ ih =>
    obtain ⟨r, hr⟩ := ih
    exact ⟨max (s a) r, by rw [Finset.fold_cons, hr]; exact (EReal.coe_strictMono.monotone.map_max).symm⟩

/-- A finite nonnegative factor distributes over any finite sum of extended reals. -/
theorem sum_mul_const {ι : Type*} (t : Finset ι) (a : ι → EReal) {c : EReal} (h0 : 0 ≤ c) (hc : c ≠ ⊤) :
    (∑ i ∈ t, a i) * c = ∑ i ∈ t, a i * c := by
  classical
  induction t using Finset.induction_on with
  | empty => simp
  | insert x t hx ih =>
    rw [Finset.sum_insert hx, Finset.sum_insert hx, EReal.right_distrib_of_nonneg_of_ne_top h0 hc, ih]

/-- For real scores the two arrangements of the normalisation agree, whatever the values are. -/
theorem normAfter_eq_normBefore (hk : 0 < k) (s : Fin k → ℝ) (v : Fin k → EReal) :
    normAfter (fun o => (s o : EReal)) v = normBefore (fun o => (s o : EReal)) v := by
  obtain ⟨r, hr⟩ := rowMax_coe hk s
  have hw : ∀ o, weight (fun o => (s o : EReal)) o = ((Real.exp (s o - r) : ℝ) : EReal) := fun o => by
    unfold weight
    rw [hr, ← EReal.coe_sub, Ideal.exp_coe]
  have hd : denom (fun o => (s o : EReal)) = ((∑ o : Fin k, Real.exp (s o - r) : ℝ) : EReal) := by
    unfold denom
    rw [coe_sum]
    exact Finset.sum_congr rfl fun o _ => hw o
  have hpos : 0 < ∑ o : Fin k, Real.exp (s o - r) :=
    Finset.sum_pos (fun o _ => Real.exp_pos _) ⟨⟨0, hk⟩, Finset.mem_univ _⟩
  unfold normAfter normBefore
  rw [hd]
  simp only [Ideal.div_coe hpos.ne']
  rw [sum_mul_const _ _ (EReal.coe_nonneg.2 (one_div_nonneg.2 hpos.le)) (EReal.coe_ne_top _)]
  exact Finset.sum_congr rfl fun o _ => mul_right_comm _ _ _

end Cert.SoftmaxRow

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.KernelRow.lean ====
/-
  The kernel body's result block, read at one entry.

  A grid point holds one batch element: a [1, 512, 512] block of queries and a [1, 2048, 512] block of rows that serve
  both as keys and as values.  Entry (i, d) of the block the body stores is, on the extended reals, the softmax
  attention of query row i over the 2048 key rows with the normalisation applied AFTER the weighted sum: the scores are
  the inner products of query row i with each key row (a product into a zero accumulator), their largest value is
  folded from −∞, the weights are the exponentials of the shifted scores, and the weighted sum of column d of the
  value rows (a second product into a zero accumulator) is divided by the sum of the weights.  Narrowing a value to a
  shorter float format changes nothing on the extended reals.
-/
import proofs.«154016_j19713899889150_2_alg».proof.Proof.Gen.KernelIdeal.Skeleton
import proofs.«154016_j19713899889150_2_alg».proof.Proof.SoftmaxRow
import proofs.«154016_j19713899889150_2_alg».proof.Proof.LibKeepdims
import proofs.«154016_j19713899889150_2_alg».proof.Proof.LibRowReduce
import proofs.«154016_j19713899889150_2_alg».proof.Proof.LibRowRowDot
import proofs.«154016_j19713899889150_2_alg».proof.Proof.LibMatmulRows
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- The word of −∞ is the bottom of the extended reals. -/
theorem ofBits_neg_inf : Ideal.ofBits .f32 0xFF800000#32 = (⊥ : EReal) := by
  simp [Ideal.ofBits, Ideal.ieee]

/-- A vector exponential, entry by entry. -/
theorem exp_apply {s : Shape} {φ : FTy} (a : FVec Ideal s φ) (i : s.Idx) : exp a i = Ideal.exp (a i) := rfl

/-- The second product contracts the weights' columns with the value rows: its four operand-index facts. -/
theorem pv_l0 (j : S512x512.Idx) (q : dot_S512x2048_S2048x512_S512x512_1_0_0_1_n_n.contr.Idx) :
    (dot_S512x2048_S2048x512_S512x512_1_0_0_1_n_n.lhsIdx j q 0).val = (j 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
theorem pv_l1 (j : S512x512.Idx) (q : dot_S512x2048_S2048x512_S512x512_1_0_0_1_n_n.contr.Idx) :
    (dot_S512x2048_S2048x512_S512x512_1_0_0_1_n_n.lhsIdx j q 1).val = (q ⟨0, by decide⟩).val :=
  dot_S512x2048_S2048x512_S512x512_1_0_0_1_n_n.lhsIdx_val_of_single rfl j q
theorem pv_r0 (j : S512x512.Idx) (q : dot_S512x2048_S2048x512_S512x512_1_0_0_1_n_n.contr.Idx) :
    (dot_S512x2048_S2048x512_S512x512_1_0_0_1_n_n.rhsIdx j q 0).val = (q ⟨0, by decide⟩).val :=
  dot_S512x2048_S2048x512_S512x512_1_0_0_1_n_n.rhsIdx_val_of_single rfl j q
theorem pv_r1 (j : S512x512.Idx) (q : dot_S512x2048_S2048x512_S512x512_1_0_0_1_n_n.contr.Idx) :
    (dot_S512x2048_S2048x512_S512x512_1_0_0_1_n_n.rhsIdx j q 1).val = (j 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- The scores: a product of query rows against key rows into the zero accumulator. -/
theorem scores_apply (l : FVec Ideal S512x512 .bf16) (r : FVec Ideal S2048x512 .bf16) (i : Fin 512) (o : Fin 2048) :
    matmul dot_S512x512_S2048x512_S512x2048_1_1_0_0_n_n none l r (constant S512x2048 .f32 0x00000000#32) (ix2 i o)
      = ∑ j : Fin 512, l (ix2 i j) * r (ix2 o j) :=
  LibRowRowDot.matmul_zero_rows_apply dot_S512x512_S2048x512_S512x2048_1_1_0_0_n_n rfl rfl rfl rfl rfl rfl none l r i o

/-- The weighted sum: a product of the weights against the value rows into the zero accumulator. -/
theorem weighted_apply (l : FVec Ideal S512x2048 .bf16) (r : FVec Ideal S2048x512 .bf16) (i : Fin 512) (d : Fin 512) :
    matmul dot_S512x2048_S2048x512_S512x512_1_0_0_1_n_n none l r (constant S512x512 .f32 0x00000000#32) (ix2 i d)
      = ∑ o : Fin 2048, l (ix2 i o) * r (ix2 o d) :=
  LibMatmulRows.matmul_rows_apply dot_S512x2048_S2048x512_S512x512_1_0_0_1_n_n rfl rfl pv_l0 pv_l1 pv_r0 pv_r1 none l r i d

/-- The largest score of row i: the vector maximum-reduction along the rows, folded from −∞. -/
theorem rowmax_apply (src : FVec Ideal S512x2048 .f32) (h : S512x2048.Reduces [1] S512) (hφ : FKind.Formats .f32)
    (hacc : (0xFF800000#32 : BitVec 32) = 0xFF800000#32) (i : Fin 512) :
    multiReduction .maximumf [1] S512 src 0xFF800000#32 h hφ hacc (ix1 i)
      = (Finset.univ : Finset (Fin 2048)).fold max (⊥ : EReal) (fun o => src (ix2 i o)) :=
  (LibRowReduce.multiReduction_max_row src 0xFF800000#32 h hφ hacc i).trans (by rw [ofBits_neg_inf])

/-- The sum of the weights of row i: the vector add-reduction along the rows. -/
theorem rowsum_apply (src : FVec Ideal S512x2048 .f32) (h : S512x2048.Reduces [1] S512) (hφ : FKind.Formats .f32)
    (hacc : (0x00000000#32 : BitVec 32) = 0x00000000#32) (i : Fin 512) :
    multiReduction .add [1] S512 src 0x00000000#32 h hφ hacc (ix1 i) = ∑ o : Fin 2048, src (ix2 i o) :=
  LibRowReduce.multiReduction_add_row src 0x00000000#32 h hφ hacc i

/-- Entry (i, d) of the block the body stores, from the blocks it loads. -/
theorem payload_apply (v0 : Vec Ideal S1x512x512 .f32) (v3 : Vec Ideal S1x2048x512 .f32) (u : Fin 1) (i d : Fin 512) :
    k0_pay1 (F := Ideal) v0 v3 (ix3 u i d)
      = SoftmaxRow.normAfter
          (fun o : Fin 2048 => SoftmaxRow.dotRow (fun j : Fin 512 => v0 (ix3 (0 : Fin 1) i j)) (fun j : Fin 512 => v3 (ix3 (0 : Fin 1) o j)))
          (fun o : Fin 2048 => v3 (ix3 (0 : Fin 1) o d)) := by
  unfold k0_pay1 SoftmaxRow.normAfter SoftmaxRow.denom SoftmaxRow.weight SoftmaxRow.rowMax SoftmaxRow.dotRow
  simp only [shapeCast_ab_1ab_apply, divf_apply, LibKeepdims.broadcastTo_a1_ab_apply, LibKeepdims.shapeCast_a_a1_apply,
    exp_apply, subf_apply, truncf_apply, scores_apply, weighted_apply, shapeCast_1ab_ab_apply]
  rw [rowsum_apply]
  simp only [exp_apply, subf_apply, LibKeepdims.broadcastTo_a1_ab_apply, LibKeepdims.shapeCast_a_a1_apply]
  rw [rowmax_apply]
  simp only [scores_apply, truncf_apply, shapeCast_1ab_ab_apply]

end Cert.KernelIdeal.Row

end
-- ==== Proof.AttentionArray.lean ====
/-
  Batched attention as ONE function of the two argument arrays, entry by entry.

  Q is a [32, 512, 512] array of query rows and KV a [32, 2048, 512] array whose rows serve both as keys and as values.
  Entry (b, i, d) of the result is the softmax attention of query row (b, i) over the 2048 rows of batch element b:
  the scores are the inner products of the query row with each key row, and the value averaged is column d.  The two
  arrangements of the normalisation (after the weighted sum, or weight by weight before it) give two such functions,
  and they are the same function as soon as both arrays hold real numbers: every score is then a finite sum of
  products of reals.
-/
import Idealize.ShloMosaic.Lib.ValueIdx
import proofs.«154016_j19713899889150_2_alg».proof.Proof.SoftmaxRow

noncomputable section

open scoped BigOperators

namespace Cert.AttentionArray

open Idealize.ShloMosaic Idealize.ShloMosaic.ValueIdx

abbrev QShape : Shape := ⟨3, ![32, 512, 512]⟩
abbrev KVShape : Shape := ⟨3, ![32, 2048, 512]⟩

/-- The scores of query row (b, i) against the 2048 key rows of batch element b. -/
def scores (Q : QShape.Idx → EReal) (KV : KVShape.Idx → EReal) (b : Fin 32) (i : Fin 512) : Fin 2048 → EReal :=
  fun o => SoftmaxRow.dotRow (fun j : Fin 512 => Q (ix3 b i j)) (fun j : Fin 512 => KV (ix3 b o j))

/-- Column d of the value rows of batch element b. -/
def values (KV : KVShape.Idx → EReal) (b : Fin 32) (d : Fin 512) : Fin 2048 → EReal := fun o => KV (ix3 b o d)

/-- Entry (b, i, d), normalised after the weighted sum. -/
def afterAt (Q : QShape.Idx → EReal) (KV : KVShape.Idx → EReal) (b : Fin 32) (i d : Fin 512) : EReal :=
  SoftmaxRow.normAfter (scores Q KV b i) (values KV b d)

/-- Entry (b, i, d), every weight normalised before the weighted sum. -/
def beforeAt (Q : QShape.Idx → EReal) (KV : KVShape.Idx → EReal) (b : Fin 32) (i d : Fin 512) : EReal :=
  SoftmaxRow.normBefore (scores Q KV b i) (values KV b d)

/-- The whole result array, normalised after the weighted sum. -/
def attnAfter (Q : QShape.Idx → EReal) (KV : KVShape.Idx → EReal) : QShape.Idx → EReal :=
  fun x => afterAt Q KV (x 0) (x 1) (x 2)

/-- The whole result array, every weight normalised first. -/
def attnBefore (Q : QShape.Idx → EReal) (KV : KVShape.Idx → EReal) : QShape.Idx → EReal :=
  fun x => beforeAt Q KV (x 0) (x 1) (x 2)

/-- On arrays of real numbers the scores are real. -/
theorem scores_coe (Q : QShape.Idx → ℝ) (KV : KVShape.Idx → ℝ) (b : Fin 32) (i : Fin 512) :
    scores (fun x => (Q x : EReal)) (fun x => (KV x : EReal)) b i
      = fun o => ((∑ j : Fin 512, Q (ix3 b i j) * KV (ix3 b o j) : ℝ) : EReal) :=
  funext fun _ => SoftmaxRow.dotRow_coe _ _

/-- On arrays of real numbers the two arrangements agree at every entry. -/
theorem afterAt_eq_beforeAt (Q : QShape.Idx → ℝ) (KV : KVShape.Idx → ℝ) (b : Fin 32) (i d : Fin 512) :
    afterAt (fun x => (Q x : EReal)) (fun x => (KV x : EReal)) b i d
      = beforeAt (fun x => (Q x : EReal)) (fun x => (KV x : EReal)) b i d := by
  unfold afterAt beforeAt
  rw [scores_coe]
  exact SoftmaxRow.normAfter_eq_normBefore (by decide) _ _

/-- On arrays of real numbers the two arrangements are one function. -/
theorem attnAfter_eq_attnBefore (Q : QShape.Idx → ℝ) (KV : KVShape.Idx → ℝ) :
    attnAfter (fun x => (Q x : EReal)) (fun x => (KV x : EReal)) = attnBefore (fun x => (Q x : EReal)) (fun x => (KV x : EReal)) :=
  funext fun x => afterAt_eq_beforeAt Q KV (x 0) (x 1) (x 2)

end Cert.AttentionArray

end
-- ==== Proof.KernelArray.lean ====
/-
  From the blocks the grid points write back to the kernel's whole result array.

  The grid has one point per batch element.  At point t the three windows' blocks are batch element t of the queries,
  of the key/value rows and of the result, each a whole [1, ·, ·] slab: the block index is (t, 0, 0) for all three.
  So an entry (0, i, j) of an input block is entry (t, i, j) of its argument array, the block point t writes back is
  batch element t of the attention function normalised after the weighted sum, and since every batch element is some
  point's block, the result array ends holding that function everywhere.
-/
import proofs.«154016_j19713899889150_2_alg».proof.Proof.Gen.KernelIdeal.Value
import proofs.«154016_j19713899889150_2_alg».proof.Proof.KernelRow
import proofs.«154016_j19713899889150_2_alg».proof.Proof.AttentionArray
import Idealize.ShloMosaic.Lib.Pipeline.Value

noncomputable section

open scoped BigOperators

namespace Cert.KernelIdeal.Array

open Cert.KernelIdeal Cert.KernelIdeal.Gen Cert.KernelIdeal.Value Idealize.ShloMosaic Idealize.ShloMosaic.TcCoe Idealize.SL.Sem
open Idealize.ShloMosaic.ValueIdx Cert.AttentionArray
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 32 grid points: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Entry (0, i, j) of the query block at point t is entry (t, i, j) of the query array. -/
theorem qblk_apply (c : Dev nD) (t : Fin cfg0.N) (i j : Fin 512) (k : S32x512x512.Idx)
    (hk0 : (k 0).val = t.val) (hk1 : (k 1).val = i.val) (hk2 : (k 2).val = j.val) :
    (iblk m c 0 t : Vec Ideal S1x512x512 .f32) (ix3 (0 : Fin 1) i j) = (V m c main_arg0 : S32x512x512.Idx → EReal) k := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * (0 : Fin 1).val = (k 0).val; rw [e0, hk0]; simp
  | ⟨1, _⟩ => show win0_0.index t (1 : Fin 3) * 512 + 1 * i.val = (k 1).val; rw [e1, hk1]; omega
  | ⟨2, _⟩ => show win0_0.index t (2 : Fin 3) * 512 + 1 * j.val = (k 2).val; rw [e2, hk2]; omega

/-- Entry (0, o, j) of the key/value block at point t is entry (t, o, j) of the key/value array. -/
theorem kvblk_apply (c : Dev nD) (t : Fin cfg0.N) (o : Fin 2048) (j : Fin 512) (k : S32x2048x512.Idx)
    (hk0 : (k 0).val = t.val) (hk1 : (k 1).val = o.val) (hk2 : (k 2).val = j.val) :
    (iblk m c 1 t : Vec Ideal S1x2048x512 .f32) (ix3 (0 : Fin 1) o j) = (V m c main_arg1 : S32x2048x512.Idx → EReal) k := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * (0 : Fin 1).val = (k 0).val; rw [e0, hk0]; simp
  | ⟨1, _⟩ => show win0_1.index t (1 : Fin 3) * 2048 + 1 * o.val = (k 1).val; rw [e1, hk1]; omega
  | ⟨2, _⟩ => show win0_1.index t (2 : Fin 3) * 512 + 1 * j.val = (k 2).val; rw [e2, hk2]; omega

/-- The block's entry (u, i, d) computed from the two input blocks at point t is entry (t, i, d) of the attention
    function of the argument arrays. -/
theorem block_entry (c : Dev nD) (t : Fin cfg0.N) (u : Fin 1) (i d : Fin 512) (b : Fin 32) (hb : b.val = t.val) :
    k0_pay1 (F := Ideal) (iblk m c 0 t) (iblk m c 1 t) (ix3 u i d)
      = afterAt (V m c main_arg0) (V m c main_arg1) b i d := by
  refine (Row.payload_apply (iblk m c 0 t) (iblk m c 1 t) u i d).trans ?_
  unfold afterAt scores values
  congr 1
  · funext o
    congr 1
    · funext j; exact qblk_apply m c t i j (ix3 b i j) hb rfl rfl
    · funext j; exact kvblk_apply m c t o j (ix3 b o j) hb rfl rfl
  · funext o; exact kvblk_apply m c t o d (ix3 b o d) hb rfl rfl

/-- WHAT POINT t WRITES BACK is block t of the attention function of the argument arrays as the region finds them. -/
theorem flushed_eq (c : Dev nD) (t : Fin cfg0.N) :
    (dats m 0 c).flushed 2 t
      = ((cfg0.win 2).blk t).view.read (Elt Ideal) (attnAfter (V m c main_arg0) (V m c main_arg1)) := by
  rw [flushed2]
  unfold out0_2
  rw [View.canon_unit_zero hz]
  simp only [View.ld_unit_zero (S := S1x512x512) hz, View.ld_unit_zero (S := S1x2048x512) hz]
  obtain ⟨-, -, -, -, -, -, e0, e1, e2⟩ := idx_facts t
  funext y
  show k0_pay1 (F := Ideal) (iblk m c 0 t) (iblk m c 1 t) y
    = attnAfter (V m c main_arg0) (V m c main_arg1) (((cfg0.win 2).blk t).view.emb y)
  have hy0 : (y 0).val < 1 := (y 0).isLt
  have hy1 : (y 1).val < 512 := (y 1).isLt
  have hy2 : (y 2).val < 512 := (y 2).isLt
  have hx0 : ((((cfg0.win 2).blk t).view.emb y) 0).val = t.val := by
    show win0_2.index t (0 : Fin 3) * 1 + 1 * (y 0).val = t.val
    omega
  have hx1 : ((((cfg0.win 2).blk t).view.emb y) 1).val = (y 1).val := by
    show win0_2.index t (1 : Fin 3) * 512 + 1 * (y 1).val = (y 1).val
    omega
  have hx2 : ((((cfg0.win 2).blk t).view.emb y) 2).val = (y 2).val := by
    show win0_2.index t (2 : Fin 3) * 512 + 1 * (y 2).val = (y 2).val
    omega
  refine (congrArg (k0_pay1 (F := Ideal) (iblk m c 0 t) (iblk m c 1 t)) (eq_ix3 y)).trans ?_
  refine (block_entry m c t (y 0) (y 1) (y 2) ((((cfg0.win 2).blk t).view.emb y) 0) hx0).trans ?_
  unfold attnAfter
  exact congrArg₂ (afterAt (V m c main_arg0) (V m c main_arg1) ((((cfg0.win 2).blk t).view.emb y) 0))
    (Fin.ext hx1.symm) (Fin.ext hx2.symm)

/-- An index of the array is in point t's block iff each coordinate is in the block's range on its axis. -/
theorem mem_blk (t : Fin cfg0.N) (x : S32x512x512.Idx) :
    x ∈ ((cfg0.win 2).blk t).view.set ↔ ∀ a : Fin 3, win0_2.index t a * S1x512x512.size a ≤ (x a).val
      ∧ (x a).val < win0_2.index t a * S1x512x512.size a + S1x512x512.size a := by
  show x ∈ ((View.whole main_v0).slice (win0_2.rect t)).set ↔ _
  rw [View.set_slice_whole, Rect.mem_set_unit]
  exact Iff.rfl

/-- Every entry of the result array lies in the block of the point of its batch element. -/
theorem cover (x : S32x512x512.Idx) :
    ∃ t : Fin cfg0.N, (cfg0.win 2).flush t = true ∧ x ∈ ((cfg0.win 2).blk t).view.set := by
  have hx0 : (x 0).val < 32 := (x 0).isLt
  have hx1 : (x 1).val < 512 := (x 1).isLt
  have hx2 : (x 2).val < 512 := (x 2).isLt
  have hN : cfg0.N = 32 := N_0
  refine ⟨⟨(x 0).val, by rw [hN]; exact hx0⟩, flush0_2 _, ?_⟩
  obtain ⟨-, -, -, -, -, -, e0, e1, e2⟩ := idx_facts ⟨(x 0).val, by rw [hN]; exact hx0⟩
  rw [mem_blk]
  intro a
  match a with
  | ⟨0, _⟩ =>
    show win0_2.index _ (0 : Fin 3) * 1 ≤ (x 0).val ∧ (x 0).val < win0_2.index _ (0 : Fin 3) * 1 + 1
    rw [e0]; show (x 0).val * 1 ≤ (x 0).val ∧ (x 0).val < (x 0).val * 1 + 1; omega
  | ⟨1, _⟩ =>
    show win0_2.index _ (1 : Fin 3) * 512 ≤ (x 1).val ∧ (x 1).val < win0_2.index _ (1 : Fin 3) * 512 + 512
    rw [e1]; omega
  | ⟨2, _⟩ =>
    show win0_2.index _ (2 : Fin 3) * 512 ≤ (x 2).val ∧ (x 2).val < win0_2.index _ (2 : Fin 3) * 512 + 512
    rw [e2]; omega

/-- THE RESULT ARRAY after the run is the attention function of the argument arrays. -/
theorem final (c : Dev nD) :
    (dats m 0 c).arrAt 2 cfg0.N = attnAfter (m ((c : Thread nD τ).loc main_arg0)) (m ((c : Thread nD τ).loc main_arg1)) :=
  (dats m 0 c).arrAt_eq_of_cover 2 (attnAfter (V m c main_arg0) (V m c main_arg1)) (fun t _ => flushed_eq m c t) cover

/-- The kernel's run, read: the result array at the attention function of the arguments, the arguments unchanged. -/
theorem run : θ_run defs (onTc (τ := τ) (main (F := Ideal))) ⟨m, fun _ => 0, ρ⟩ fun r => ∀ c : Dev nD,
      r.2.mem ((c : Thread nD τ).loc main_v0) = attnAfter (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Array

end
-- ==== Proof.LibLastAxisReduce.lean ====
/-
  The host's maximum-reduce over the LAST axis of a rank-3 array, read at one entry.

  For an [n0, n1, n2] array reduced over its third axis into an [n0, n1] matrix, the entry at (b, i) is the fold of
  `max`, from the start value, over the entries (b, i, 0), …, (b, i, n2-1).  Stated at the extended reals, for any
  extents and float format: the rank-3 companion of the reduction along the rows of a matrix.
-/
import Idealize.ShloMosaic.PureOps.Ideal.Laws
import Idealize.ShloMosaic.Lib.ValueIdx

noncomputable section
namespace Cert.LibLastAxisReduce
open Idealize.ShloMosaic Idealize.ShloMosaic.ValueIdx

variable {φ : FTy}

/-- Entry (b, i) of the result with the coordinate o put back on the reduced axis is the entry (b, i, o). -/
theorem lift_last {n0 n1 n2 : ℕ} (h : (⟨3, ![n0, n1, n2]⟩ : Shape).Reduces [2] ⟨2, ![n0, n1]⟩)
    (b : Fin n0) (i : Fin n1) (o : Fin n2) : h.lift (ix2 b i) o = ix3 b i o :=
  funext fun a => Fin.ext (by
    match a with
    | ⟨0, _⟩ => rfl
    | ⟨1, _⟩ => rfl
    | ⟨2, _⟩ => rfl)

/-- The host's maximum-reduce over the last axis: the fold of `max` over that axis from the start value. -/
theorem hostReduce_max_last {n0 n1 n2 : ℕ} {u : Shape} (x : FVec Ideal ⟨3, ![n0, n1, n2]⟩ φ) (init : u.Idx → Ideal φ)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (b : Fin n0) (i : Fin n1) :
    Host.reduce (FloatOps.maximumf (F := Ideal) (φ := φ)) x init h' hu (ix2 b i)
      = (Finset.univ : Finset (Fin n2)).fold max (init (Shape.Idx.first hu)) (fun o => x (ix3 b i o)) :=
  (Host.reduce_eq_fold_single (FloatOps.maximumf (F := Ideal) (φ := φ)) x init h' h hu (ix2 b i)).trans
    (congrArg (Finset.fold max (init (Shape.Idx.first hu)) · Finset.univ) (funext fun o => congrArg x (lift_last h b i o)))

end Cert.LibLastAxisReduce
end
-- ==== Proof.ReferenceArray.lean ====
/-
  The reference's result array, read entry by entry.

  The reference forms all scores of a batch at once (a batched contraction of the query rows with the key rows),
  takes each row's largest score from −∞ (and once more against a constant −∞, which changes nothing), exponentiates
  the shifted scores, sums each row of weights from zero, divides EVERY weight by its row's sum, and contracts the
  normalised weights with the value rows.  Read at entry (b, i, d) this is the softmax attention of query row (b, i)
  over the rows of batch element b with every weight normalised BEFORE the weighted sum.
-/
import proofs.«154016_j19713899889150_2_alg».proof.Proof.Gen.ReferenceIdeal.Read
import proofs.«154016_j19713899889150_2_alg».proof.Proof.AttentionArray
import proofs.«154016_j19713899889150_2_alg».proof.Proof.LibLastAxisReduce
import Idealize.ShloMosaic.Lib.ValueIdx
import Idealize.ShloMosaic.PureOps.Ideal.Laws

noncomputable section

open scoped BigOperators

namespace Cert.ReferenceIdeal.Array

open Cert.ReferenceIdeal Cert.ReferenceIdeal.Gen Cert.ReferenceIdeal.Read Idealize.ShloMosaic Idealize.ShloMosaic.ValueIdx
open Cert.AttentionArray

variable (x0 : (⟨S32x512x512, .f32⟩ : BufTy).Contents (Elt Ideal)) (x1 : (⟨S32x2048x512, .f32⟩ : BufTy).Contents (Elt Ideal))

/-- The word of −∞ is the bottom of the extended reals. -/
theorem ofBits_neg_inf : Ideal.ofBits .f32 0xFF800000#32 = (⊥ : EReal) := by
  simp [Ideal.ofBits, Ideal.ieee]

/-- The batched contraction at (b, i, o): the score of query row (b, i) against key row (b, o). -/
theorem scores_at (b : Fin 32) (i : Fin 512) (o : Fin 2048) :
    val_main_v0 (F := Ideal) x0 x1 (ix3 b i o) = scores x0 x1 b i o := by
  rw [val_main_v0_apply]
  unfold scores SoftmaxRow.dotRow
  refine Finset.sum_congr rfl fun j _ => ?_
  have el : lidx_main_v0 (ix3 b i o) j = ix3 b i j := funext fun a => Fin.ext (by match a with | ⟨0, _⟩ => rfl | ⟨1, _⟩ => rfl | ⟨2, _⟩ => rfl)
  have er : ridx_main_v0 (ix3 b i o) j = ix3 b o j := funext fun a => Fin.ext (by match a with | ⟨0, _⟩ => rfl | ⟨1, _⟩ => rfl | ⟨2, _⟩ => rfl)
  rw [el, er]

/-- The row's largest score: the reduce from −∞, then the larger of that and −∞. -/
theorem rowmax_at (b : Fin 32) (i : Fin 512) :
    val_main_v3 (F := Ideal) x0 x1 (ix2 b i) = SoftmaxRow.rowMax (scores x0 x1 b i) := by
  rw [val_main_v3_apply, val_main_v2_apply, val_main_cst_0_apply]
  show max (Ideal.ofBits .f32 0xFF800000#32) (val_main_v1 (F := Ideal) x0 x1 (ix2 b i)) = _
  rw [ofBits_neg_inf, max_bot_left]
  unfold val_main_v1
  refine (LibLastAxisReduce.hostReduce_max_last (val_main_v0 (F := Ideal) x0 x1) (val_main_cst (F := Ideal))
    reducesTo_S32x512x2048_S32x512_d2 (by decide) h_S_ b i).trans ?_
  rw [val_main_cst_apply]
  show Finset.fold max (Ideal.ofBits .f32 0xFF800000#32) _ _ = _
  rw [ofBits_neg_inf]
  unfold SoftmaxRow.rowMax
  exact congrArg (Finset.fold max (⊥ : EReal) · Finset.univ) (funext fun o => scores_at x0 x1 b i o)

/-- The weight of key row o for query row (b, i). -/
theorem weight_at (b : Fin 32) (i : Fin 512) (o : Fin 2048) :
    val_main_v7 (F := Ideal) x0 x1 (ix3 b i o) = SoftmaxRow.weight (scores x0 x1 b i) o := by
  rw [val_main_v7_apply, val_main_v6_apply, val_main_v5_apply, val_main_v4_apply]
  have e : idx_main_v4 (idx_main_v5 (ix3 b i o)) = ix2 b i := funext fun a => Fin.ext (by match a with | ⟨0, _⟩ => rfl | ⟨1, _⟩ => rfl)
  rw [e, rowmax_at, scores_at]
  rfl

/-- The sum of the weights of query row (b, i), from zero. -/
theorem denom_at (b : Fin 32) (i : Fin 512) :
    val_main_v8 (F := Ideal) x0 x1 (ix2 b i) = SoftmaxRow.denom (scores x0 x1 b i) := by
  rw [val_main_v8_apply, val_main_cst_1_apply]
  show Ideal.ofBits .f32 0x00000000#32 + _ = _
  rw [Ideal.ofBits_zero_f32, zero_add]
  unfold SoftmaxRow.denom
  refine Finset.sum_congr rfl fun o _ => ?_
  have e : idx_main_v8 (ix2 b i) o = ix3 b i o := funext fun a => Fin.ext (by match a with | ⟨0, _⟩ => rfl | ⟨1, _⟩ => rfl | ⟨2, _⟩ => rfl)
  rw [e]
  exact weight_at x0 x1 b i o

/-- Entry (b, i, d) of the reference's result. -/
theorem result_at (b : Fin 32) (i d : Fin 512) :
    val_main_v12 (F := Ideal) x0 x1 (ix3 b i d) = beforeAt x0 x1 b i d := by
  rw [val_main_v12_apply]
  unfold beforeAt SoftmaxRow.normBefore
  refine Finset.sum_congr rfl fun o _ => ?_
  have el : lidx_main_v12 (ix3 b i d) o = ix3 b i o := funext fun a => Fin.ext (by match a with | ⟨0, _⟩ => rfl | ⟨1, _⟩ => rfl | ⟨2, _⟩ => rfl)
  have er : ridx_main_v12 (ix3 b i d) o = ix3 b o d := funext fun a => Fin.ext (by match a with | ⟨0, _⟩ => rfl | ⟨1, _⟩ => rfl | ⟨2, _⟩ => rfl)
  rw [el, er, val_main_v11_apply, val_main_v10_apply, val_main_v9_apply]
  have e : idx_main_v9 (idx_main_v10 (ix3 b i o)) = ix2 b i := funext fun a => Fin.ext (by match a with | ⟨0, _⟩ => rfl | ⟨1, _⟩ => rfl)
  rw [e, weight_at, denom_at]
  rfl

/-- The reference's result array is the attention function with every weight normalised first. -/
theorem result_eq : val_main_v12 (F := Ideal) x0 x1 = attnBefore x0 x1 :=
  funext fun x => (congrArg (val_main_v12 (F := Ideal) x0 x1) (eq_ix3 x)).trans (result_at x0 x1 (x 0) (x 1) (x 2))

end Cert.ReferenceIdeal.Array

end
-- ==== Proof.FiniteInputs.lean ====
/-
  What the precondition gives: both argument arrays hold real numbers, so the two arrangements of the attention
  function agree on them.

  The precondition is the conjunction of two `all`s: every entry x of either array has |x| < +∞.  On the extended
  reals |x| is the larger of x and −x, which is +∞ exactly when x is one of the two infinities; so an entry passing the
  test is a real number.  With every entry of both arrays real, normalising after the weighted sum and normalising
  every weight before it give the same array.
-/
import proofs.«154016_j19713899889150_2_alg».proof.Pre_finite_inputs
import proofs.«154016_j19713899889150_2_alg».proof.Proof.Gen.Pre_finite_inputs
import proofs.«154016_j19713899889150_2_alg».proof.Proof.AttentionArray
import Idealize.ShloMosaic.PureOps.Ideal
import Idealize.ShloMosaic.Lib.ReduceAll
import Idealize.ShloMosaic.Lib.ValueIdx
import Idealize.ShloMosaic.Lib.Pipeline.Value

noncomputable section

namespace Cert.Pre_finite_inputs.Real

open Cert.Pre_finite_inputs Cert.Pre_finite_inputs.Gen Idealize.ShloMosaic Cert.AttentionArray

/-- An extended real whose absolute value compares below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hx_top : x ≠ ⊤ := by rintro rfl; simp [Ideal.cmp] at h
  have hx_bot : x ≠ ⊥ := by rintro rfl; simp [Ideal.cmp] at h
  exact ⟨x.toReal, (EReal.coe_toReal hx_top hx_bot).symm⟩

instance : Subsingleton S_.Idx := ⟨fun _ _ => funext fun d => d.elim0⟩

/-- Under the precondition every entry of both argument arrays is a real number. -/
theorem real_of_fn (a0 : FVec Ideal S32x512x512 .f32) (a1 : FVec Ideal S32x2048x512 .f32)
    (h : fn (F := Ideal) a0 a1 = fun _ => 1#1) :
    (∀ x, ∃ r : ℝ, a0 x = (r : EReal)) ∧ (∀ x, ∃ r : ℝ, a1 x = (r : EReal)) := by
  have h1 := congrFun h ValueIdx.ix0
  dsimp only [fn] at h1
  obtain ⟨ha, hb⟩ := IntOp.andi_eq_one.1 h1
  refine ⟨fun x => ?_, fun x => ?_⟩
  · have e := Host.reduce_andi_all _ _ Facts.reducesTo_S32x512x512_S_d0_1_2 Facts.h_S_ ValueIdx.ix0 ha x
    have e' : FloatOps.cmpf .olt (FloatOps.hostAbsf (a0 x))
        (broadcastInDim S32x512x512 ![] Facts.bcast_S_S32x512x512 (constant (F := Ideal) S_ .f32 0x7F800000#32) x) = 1#1 := e
    rw [broadcastInDim_apply _ Facts.bcast_S_S32x512x512 _ x (fun a => a.elim0) (fun a => a.elim0)] at e'
    exact real_of_abs_lt_top (a0 x) e'
  · have e := Host.reduce_andi_all _ _ Facts.reducesTo_S32x2048x512_S_d0_1_2 Facts.h_S_ ValueIdx.ix0 hb x
    have e' : FloatOps.cmpf .olt (FloatOps.hostAbsf (a1 x))
        (broadcastInDim S32x2048x512 ![] Facts.bcast_S_S32x2048x512 (constant (F := Ideal) S_ .f32 0x7F800000#32) x) = 1#1 := e
    rw [broadcastInDim_apply _ Facts.bcast_S_S32x2048x512 _ x (fun a => a.elim0) (fun a => a.elim0)] at e'
    exact real_of_abs_lt_top (a1 x) e'

/-- Under the precondition, normalising every weight first and normalising after the weighted sum give one array. -/
theorem attnBefore_eq_attnAfter (a0 : FVec Ideal S32x512x512 .f32) (a1 : FVec Ideal S32x2048x512 .f32)
    (h : fn (F := Ideal) a0 a1 = fun _ => 1#1) : attnBefore a0 a1 = attnAfter a0 a1 := by
  obtain ⟨hq, hkv⟩ := real_of_fn a0 a1 h
  choose Q hQ using hq
  choose KV hKV using hkv
  obtain rfl : a0 = fun x => (Q x : EReal) := funext hQ
  obtain rfl : a1 = fun x => (KV x : EReal) := funext hKV
  exact (attnAfter_eq_attnBefore Q KV).symm

end Cert.Pre_finite_inputs.Real

end
-- ==== Proof.lean ====
/-
  Single-pass attention against its reference: one grid point per batch element, the whole key/value sequence in one
  block, so no running maximum and no rescaling.

  For a query row q and the 2048 rows k_o of its batch element (each row is both a key and a value), with scores
  s_o = ⟨q, k_o⟩, M their largest value and weights p_o = exp (s_o − M), the kernel computes
        (∑_o p_o · k_o[d]) / (∑_o p_o)
  and the reference
        ∑_o (p_o / ∑_o' p_o') · k_o[d] .
  On the extended reals these agree once the inputs are finite: the scores are then real, so M is real, every p_o is a
  positive real and their sum l is a positive real; division by l is multiplication by 1/l on every extended real, and a
  finite nonnegative factor distributes over a sum of extended reals.  That is the only place the precondition is used.
  Narrowing to a shorter float format is the identity here, and a matrix product into a zero accumulator is the plain
  sum of products, as is the reference's contraction.

  The kernel's result array as one function of the arguments is built from the generated blockwise value leg (what
  each grid point writes back) and the generated frame; the reference's result is read from its generated run one
  operation at a time.  The idealization rewrote nothing, so the kernel's printed text read on the extended reals is
  its own idealization.
-/
import proofs.«154016_j19713899889150_2_alg».proof.Defs
import proofs.«154016_j19713899889150_2_alg».proof.Proof.Gen.Kernel
import proofs.«154016_j19713899889150_2_alg».proof.Proof.Gen.Kernel.Skeleton
import proofs.«154016_j19713899889150_2_alg».proof.Proof.Gen.Kernel.Launch
import proofs.«154016_j19713899889150_2_alg».proof.Proof.Gen.Kernel.Points
import proofs.«154016_j19713899889150_2_alg».proof.Proof.Gen.Kernel.Frame
import proofs.«154016_j19713899889150_2_alg».proof.Proof.Gen.KernelIdeal
import proofs.«154016_j19713899889150_2_alg».proof.Proof.Gen.KernelIdeal.Skeleton
import proofs.«154016_j19713899889150_2_alg».proof.Proof.Gen.KernelIdeal.Launch
import proofs.«154016_j19713899889150_2_alg».proof.Proof.Gen.KernelIdeal.Points
import proofs.«154016_j19713899889150_2_alg».proof.Proof.Gen.KernelIdeal.Frame
import proofs.«154016_j19713899889150_2_alg».proof.Proof.Gen.ReferenceIdeal
import proofs.«154016_j19713899889150_2_alg».proof.Proof.Gen.Pre_finite_inputs
import proofs.«154016_j19713899889150_2_alg».proof.Proof.Gen.KernelIdeal.Value
import proofs.«154016_j19713899889150_2_alg».proof.Proof.Gen.ReferenceIdeal.Run
import proofs.«154016_j19713899889150_2_alg».proof.Proof.Gen.ReferenceIdeal.Read
import proofs.«154016_j19713899889150_2_alg».proof.Proof.KernelArray
import proofs.«154016_j19713899889150_2_alg».proof.Proof.ReferenceArray
import proofs.«154016_j19713899889150_2_alg».proof.Proof.FiniteInputs
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories agreeing on the two arguments, both programs end with the same result array: the kernel's is the
    attention function normalised after the weighted sum, the reference's the one normalising every weight first, and
    on finite arguments these are one function. -/
theorem algebraic : Cert.algebraic_KernelIdeal_ReferenceIdeal := by
  intro m ρ m' ρ' hpre hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v12_eq _ _).trans ?_
  rw [Cert.ReferenceIdeal.Array.result_eq]
  exact Cert.Pre_finite_inputs.Real.attnBefore_eq_attnAfter _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
